-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1024x512 : Shape := ⟨2, ![1024, 512]⟩
abbrev S1x1024 : Shape := ⟨2, ![1, 1024]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S65536x512 .f32) (main_arg1 : FVec F S1024x512 .f32) (main_arg2 : FVec F S1x1024 .f32) (main_arg3 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S65536x512 : Shape := ⟨2, ![65536, 512]⟩
abbrev S1024x512 : Shape := ⟨2, ![1024, 512]⟩
abbrev S1x1024 : Shape := ⟨2, ![1, 1024]⟩
abbrev S1 : Shape := ⟨1, ![1]⟩
abbrev S_ : Shape := ⟨0, ![]⟩
abbrev S1024 : Shape := ⟨1, ![1024]⟩
abbrev S1024x1 : Shape := ⟨2, ![1024, 1]⟩
abbrev S65536x1 : Shape := ⟨2, ![65536, 1]⟩
abbrev S2048x512 : Shape := ⟨2, ![2048, 512]⟩
abbrev S2048x1 : Shape := ⟨2, ![2048, 1]⟩
abbrev S512x1024 : Shape := ⟨2, ![512, 1024]⟩
abbrev S2048x1024 : Shape := ⟨2, ![2048, 1024]⟩
abbrev S2048 : Shape := ⟨1, ![2048]⟩
abbrev S1x1 : Shape := ⟨2, ![1, 1]⟩

abbrev nBuf : Space → Nat
  | .hbm => 10
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S1024x512, .f32⟩
  | .hbm, ⟨2, _⟩ => ⟨S1x1024, .f32⟩
  | .hbm, ⟨3, _⟩ => ⟨S1, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1x1024, .f32⟩
  | .hbm, ⟨9, _⟩ => ⟨S65536x1, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1x1024, .f32⟩
  | .local _ .vmem, ⟨4, _⟩ => ⟨S1x1024, .f32⟩
  | .local _ .vmem, ⟨5, _⟩ => ⟨S1, .f32⟩
  | .local _ .vmem, ⟨6, _⟩ => ⟨S2048x1, .f32⟩
  | .local _ .vmem, ⟨7, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  transposes_S1024x1_S1x1024_1_0 : S1024x1.Transposes [1, 0] S1x1024
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  reduces_S2048x512_S2048 : S2048x512.Reduces [1] S2048
  shapeCasts_S2048_S2048x1 : S2048.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S65536x1.size a
  hwx0_5 : ∀ i : grid0.Coords, EltTy.bits .f32 = 32 ∨ (Rect.block (s := S65536x1) S2048x1.size (cc0_transform_5 i) (hinb0_5 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S1024x512 : Shape := ⟨2, ![1024, 512]⟩
abbrev S1x1024 : Shape := ⟨2, ![1, 1024]⟩
abbrev S1 : Shape := ⟨1, ![1]⟩
abbrev S_ : Shape := ⟨0, ![]⟩
abbrev S65536 : Shape := ⟨1, ![65536]⟩
abbrev S1024 : Shape := ⟨1, ![1024]⟩
abbrev S65536x1024 : Shape := ⟨2, ![65536, 1024]⟩
abbrev S65536x1 : Shape := ⟨2, ![65536, 1]⟩
abbrev S1024x1 : Shape := ⟨2, ![1024, 1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1024x512, .f32⟩
  | .hbm, ⟨2, _⟩ => ⟨S1x1024, .f32⟩
  | .hbm, ⟨3, _⟩ => ⟨S1, .f32⟩
  | .hbm, ⟨4, _⟩ => ⟨S65536x512, .f32⟩
  | .hbm, ⟨5, _⟩ => ⟨S_, .f32⟩
  | .hbm, ⟨6, _⟩ => ⟨S65536, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S65536x1024, .f32⟩
  | .hbm, ⟨11, _⟩ => ⟨S65536x1, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S1024x1, .f32⟩
  | .hbm, ⟨28, _⟩ => ⟨S65536x1, .f32⟩
  | .hbm, ⟨29, _⟩ => ⟨S1x1, .f32⟩
  | .hbm, ⟨30, _⟩ => ⟨S65536x1, .f32⟩
  | .hbm, ⟨31, _⟩ => ⟨S65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  reducesTo_S1024x512_S1024_d1 : S1024x512.ReducesTo [1] S1024
  bcast_S65536_S65536x1_0 : S65536.BroadcastsInDim S65536x1 (![0] : Fin 1 → Fin S65536x1.rank)
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S1x1024_S1024x1_1_0 : S1x1024.Transposes [1, 0] S1024x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x512_S1024x512_S65536x1024_1_1_0_0_n_n_wf : DotDims.WF S65536x512 S1024x512 S65536x1024 [1] [1] [0] [0] [] []
  dot_S65536x1024_S1024x1_S65536x1_1_0_0_1_n_n_wf : DotDims.WF S65536x1024 S1024x1 S65536x1 [1] [0] [0] [1] [] []

variable [Facts₀]

def dot_S65536x512_S1024x512_S65536x1024_1_1_0_0_n_n : DotDims S65536x512 S1024x512 S65536x1024 where
  lhsContracting := [1]
  rhsContracting := [1]
  lhsNonContracting := [0]
  rhsNonContracting := [0]
  lhsBatch := []
  rhsBatch := []
  wf := dot_S65536x512_S1024x512_S65536x1024_1_1_0_0_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.RbfSpec.lean ====
/-
  The radial-basis layer as ONE function of its argument arrays, and the one law that joins the two programs.

  For a sample row `x_n` and a centre `c_k` (both of length 512) put
    `msd n k = (∑_d x_n[d]² − 2 · ∑_d x_n[d] c_k[d] + ∑_d c_k[d]²) · 2⁻⁹`,
  the mean squared distance written through the expansion of the square.  The layer's output in row `n` is
    `∑_k exp(−γ · f (msd n k)) · W[0,k] + b[0]`,
  where `f` is the identity for one program and `v ↦ max v 0` for the other.  Over finite reals the bracket is
  `∑_d (x_n[d] − c_k[d])²`, a sum of squares, so `msd n k ≥ 0` and the clamp `max · 0` changes nothing.  Finiteness is
  needed: on the extended reals a row with an infinite entry can make the bracket `⊥`.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-! ## The three float literals the law reads -/

/-- The pattern of `2.0` denotes the real `2`. -/
theorem two_eq : Ideal.ofBits .f32 0x40000000#32 = ((2 : ℝ) : EReal) := by
  simp [Ideal.ofBits, Ideal.ieee, -EReal.coe_mul]; norm_num

/-- The pattern of `1/512` denotes the real `2⁻⁹`, a dyadic the format holds exactly. -/
theorem invD_eq : Ideal.ofBits .f32 0x3B000000#32 = ((1 / 512 : ℝ) : EReal) := by
  simp [Ideal.ofBits, Ideal.ieee, -EReal.coe_mul]; norm_num

/-! ## Sums of reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of two real-valued families, inside the extended reals. -/
theorem sum_mul_coe {n : ℕ} (a b : Fin n → EReal) (ra rb : Fin n → ℝ) (ha : ∀ d, a d = (ra d : EReal)) (hb : ∀ d, b d = (rb d : EReal)) :
    (∑ d, a d * b d) = ((∑ d, ra d * rb d : ℝ) : EReal) := by
  rw [coe_sum]
  exact Finset.sum_congr rfl fun d _ => by rw [ha d, hb d, EReal.coe_mul]

/-! ## The law -/

/-- Over the reals, `∑ a² − 2 ∑ a b + ∑ b²` is the sum of the squares `(a − b)²`. -/
theorem expand_real {n : ℕ} (a b : Fin n → ℝ) :
    (∑ d, a d * a d) - 2 * (∑ d, a d * b d) + (∑ d, b d * b d) = ∑ d, (a d - b d) ^ 2 := by
  rw [Finset.mul_sum, ← Finset.sum_sub_distrib, ← Finset.sum_add_distrib]
  exact Finset.sum_congr rfl fun d _ => by ring

/-- THE LAW: for two finite rows the scaled expansion `(∑ a² − 2 ∑ a b + ∑ b²) · 2⁻⁹`, computed on the extended reals with
    the programs' own literals for `2` and `2⁻⁹`, is nonnegative. -/
theorem msd_nonneg {n : ℕ} (a b : Fin n → EReal) (ha : ∀ d, ∃ r : ℝ, a d = (r : EReal)) (hb : ∀ d, ∃ r : ℝ, b d = (r : EReal)) :
    0 ≤ ((∑ d, a d * a d) - Ideal.ofBits .f32 0x40000000#32 * (∑ d, a d * b d) + (∑ d, b d * b d)) * Ideal.ofBits .f32 0x3B000000#32 := by
  choose ra hra using ha
  choose rb hrb using hb
  rw [sum_mul_coe a a ra ra hra hra, sum_mul_coe a b ra rb hra hrb, sum_mul_coe b b rb rb hrb hrb, two_eq, invD_eq,
    ← EReal.coe_mul, ← EReal.coe_sub, ← EReal.coe_add, ← EReal.coe_mul, expand_real]
  exact EReal.coe_nonneg.mpr (mul_nonneg (Finset.sum_nonneg fun d _ => sq_nonneg _) (by norm_num))

/-- So clamping it at the pattern of `0.0` from below is the identity. -/
theorem clamp_msd {n : ℕ} (a b : Fin n → EReal) (ha : ∀ d, ∃ r : ℝ, a d = (r : EReal)) (hb : ∀ d, ∃ r : ℝ, b d = (r : EReal)) :
    max (((∑ d, a d * a d) - Ideal.ofBits .f32 0x40000000#32 * (∑ d, a d * b d) + (∑ d, b d * b d)) * Ideal.ofBits .f32 0x3B000000#32)
      (Ideal.ofBits .f32 0x00000000#32)
    = ((∑ d, a d * a d) - Ideal.ofBits .f32 0x40000000#32 * (∑ d, a d * b d) + (∑ d, b d * b d)) * Ideal.ofBits .f32 0x3B000000#32 := by
  rw [Ideal.ofBits_zero_f32]
  exact max_eq_left (msd_nonneg a b ha hb)

/-! ## The specification -/

/-- The scaled expansion of the squared distance between sample row `n` and centre `k`. -/
def msd (X : (⟨2, ![65536, 512]⟩ : Shape).Idx → EReal) (C : (⟨2, ![1024, 512]⟩ : Shape).Idx → EReal) (n : Fin 65536) (k : Fin 1024) : EReal :=
  ((∑ d : Fin 512, X (ix2 n d) * X (ix2 n d)) - Ideal.ofBits .f32 0x40000000#32 * (∑ d : Fin 512, X (ix2 n d) * C (ix2 k d))
    + (∑ d : Fin 512, C (ix2 k d) * C (ix2 k d))) * Ideal.ofBits .f32 0x3B000000#32

/-- The layer's output column: in row `n`, the weighted sum over the centres of `exp(−γ · f (msd n k))`, plus the bias. -/
def out (f : EReal → EReal) (X : (⟨2, ![65536, 512]⟩ : Shape).Idx → EReal) (C : (⟨2, ![1024, 512]⟩ : Shape).Idx → EReal)
    (W : (⟨2, ![1, 1024]⟩ : Shape).Idx → EReal) (B : (⟨1, ![1]⟩ : Shape).Idx → EReal) : (⟨2, ![65536, 1]⟩ : Shape).Idx → EReal := fun i =>
  (∑ k : Fin 1024, Ideal.exp (Ideal.ofBits .f32 0xC0835731#32 * f (msd X C ⟨(i 0).val, (i 0).isLt⟩ k)) * W (ix2 (0 : Fin 1) k))
    + B (ix1 (0 : Fin 1))

/-- On finite samples and centres the clamped layer is the unclamped one. -/
theorem out_clamp (X : (⟨2, ![65536, 512]⟩ : Shape).Idx → EReal) (C : (⟨2, ![1024, 512]⟩ : Shape).Idx → EReal)
    (W : (⟨2, ![1, 1024]⟩ : Shape).Idx → EReal) (B : (⟨1, ![1]⟩ : Shape).Idx → EReal)
    (hX : ∀ i, ∃ r : ℝ, X i = (r : EReal)) (hC : ∀ i, ∃ r : ℝ, C i = (r : EReal)) :
    out (fun v => max v (Ideal.ofBits .f32 0x00000000#32)) X C W B = out id X C W B := by
  funext i
  unfold out
  refine congrArg (· + B (ix1 (0 : Fin 1))) (Finset.sum_congr rfl fun k _ => ?_)
  refine congrArg (fun v => Ideal.exp (Ideal.ofBits .f32 0xC0835731#32 * v) * W (ix2 (0 : Fin 1) k)) ?_
  exact clamp_msd (fun d => X (ix2 ⟨(i 0).val, (i 0).isLt⟩ d)) (fun d => C (ix2 k d)) (fun d => hX _) (fun d => hC _)

end Cert.Rbf

end
-- ==== Proof.RbfRef.lean ====
/-
  The reference program's result is the specification with no clamp.

  Read one operation at a time, the reference's last stage at output row `n` is a sum over the 1024 centres `k` of
  `exp(−γ · ((0 + ∑_d x²) − 2 · ∑_d x c + (0 + ∑_d c²)) · 2⁻⁹)` times `W[0,k]` (the weight row transposed to a column and
  contracted), plus the bias broadcast down the column.  The two row sums start from the pattern of `0.0`, which denotes
  `0`.  What is left is to see that every composed index the stages read through is the plain pair of coordinates:
  sample row `n` and feature `d`, centre `k` and feature `d`, weight `(0, k)`, bias `0`.
-/
import proofs.«135842_j62105227100161_2_alg».proof.Proof.Gen.ReferenceIdeal.Read
import proofs.«135842_j62105227100161_2_alg».proof.Proof.RbfSpec

noncomputable section

namespace Cert.Rbf.Ref

open Cert.ReferenceIdeal Cert.ReferenceIdeal.Read Idealize.ShloMosaic Idealize.ShloMosaic.ValueIdx

/-- The reference's result array is `out id` of its four argument arrays. -/
theorem result_eq (X : S65536x512.Idx → EReal) (C : S1024x512.Idx → EReal) (W : S1x1024.Idx → EReal) (B : S1.Idx → EReal) :
    val_main_v22 (F := Ideal) X C W B = Cert.Rbf.out id X C W B := by
  funext i
  rw [val_main_v22_apply, val_main_v19_apply, val_main_v21_apply, val_main_v20_apply]
  unfold Cert.Rbf.out
  refine congrArg₂ (· + ·) (Finset.sum_congr rfl fun k _ => ?_) (congrArg B ?_)
  · rw [val_main_v17_apply, val_main_v16_apply, val_main_v15_apply, val_main_cst_3_apply, val_main_v14_apply,
      val_main_v13_apply, val_main_cst_2_apply, val_main_v12_apply, val_main_v9_apply, val_main_v8_apply, val_main_v5_apply,
      val_main_v1_apply, val_main_v7_apply, val_main_v6_apply, val_main_cst_1_apply, val_main_v4_apply, val_main_v11_apply,
      val_main_v10_apply, val_main_v3_apply, val_main_v18_apply]
    have e1 : ∀ d : Fin 512, idx_main_v1 (idx_main_v5 (idx_main_v8 (lidx_main_v19 i k))) d
        = ix2 (⟨(i 0).val, (i 0).isLt⟩ : Fin 65536) d :=
      fun d => funext fun a => Fin.ext (by match a with | ⟨0, _⟩ => rfl | ⟨1, _⟩ => rfl)
    have e2 : ∀ d : Fin 512, lidx_main_v4 (lidx_main_v19 i k) d = ix2 (⟨(i 0).val, (i 0).isLt⟩ : Fin 65536) d :=
      fun d => funext fun a => Fin.ext (by match a with | ⟨0, _⟩ => rfl | ⟨1, _⟩ => rfl)
    have e3 : ∀ d : Fin 512, ridx_main_v4 (lidx_main_v19 i k) d = ix2 k d :=
      fun d => funext fun a => Fin.ext (by match a with | ⟨0, _⟩ => rfl | ⟨1, _⟩ => rfl)
    have e4 : ∀ d : Fin 512, idx_main_v3 (idx_main_v10 (idx_main_v11 (lidx_main_v19 i k))) d = ix2 k d :=
      fun d => funext fun a => Fin.ext (by match a with | ⟨0, _⟩ => rfl | ⟨1, _⟩ => rfl)
    have e5 : idx_main_v18 (ridx_main_v19 i k) = ix2 (0 : Fin 1) k :=
      funext fun a => Fin.ext (by
        match a with
        | ⟨0, _⟩ => show (i 1).val = 0; have h : (i 1).val < 1 := (i 1).isLt; omega
        | ⟨1, _⟩ => rfl)
    simp only [e1, e2, e3, e4, e5, val_main_v0_apply, val_main_v2_apply, val_main_cst_apply, val_main_cst_0_apply,
      Ideal.hostUnary_exp_def, Ideal.mulf_def, Ideal.addf_def, Ideal.subf_def, Ideal.ofBits_def, Ideal.ofBits_zero_f32,
      zero_add, id_eq, Cert.Rbf.msd]
  · exact funext fun a => Fin.ext (by match a with | ⟨0, _⟩ => rfl)

end Cert.Rbf.Ref

end
-- ==== Proof.ColumnLayout.lean ====
/-
  Two layout operations of a `keepdims` row reduction, read at an index.  A row sum over `[a, b]` first gives a vector
  `[a]`; kept as a column it is cast to `[a, 1]`, and then broadcast along the rows to `[a, b]`.  Both only re-lay
  values: the column entry `(i, 0)` is the vector's entry `i`, and every entry `(p, c)` of the broadcast is the
  column's entry `(p, 0)`.
-/
import Idealize.ShloMosaic.Lib.Pipeline.Value
import Idealize.ShloMosaic.Lib.ValueIdx

noncomputable section

namespace Cert.Rbf.Layout

open Idealize.ShloMosaic Idealize.ShloMosaic.ValueIdx

variable {α : Type}

/-- A vector `[a]` cast to the column `[a, 1]` reads, at `(i, u)`, the vector at `i`: the row-major position of
    `(i, u)` in `[a, 1]` is `i · 1 + u = i`, since the unit coordinate `u` is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Layout

end
-- ==== Proof.RbfPayload.lean ====
/-
  What one grid point's body computes, entry by entry.

  At a point the body holds a block of 2048 sample rows `x` (2048 × 512), all 1024 centres `c` (1024 × 512), the row of
  the centres' squared norms `s` (1 × 1024), the weight row `w` (1 × 1024) and the bias `b`.  It stores a column of 2048
  numbers; the one in row `p` is
    `∑_k exp(−γ · max(((∑_d x[p,d]²) − 2 · (∑_d x[p,d] c[k,d]) + s[0,k]) · 2⁻⁹, 0)) · w[0,k] + b[0]`.
  The pieces: a lane sum of squares kept as a column and broadcast along the row; the matrix product of `x` with the
  centres transposed, into a zero accumulator, whose `(p, k)` entry is the dot product of row `p` with centre `k` (rounding
  the operands to a narrower format is the identity on exact values); two single rows broadcast down the block; a second
  lane sum over the 1024 centres; the bias broadcast down the column.
-/
import proofs.«135842_j62105227100161_2_alg».proof.Proof.Gen.KernelIdeal.Skeleton
import proofs.«135842_j62105227100161_2_alg».proof.Proof.ColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Pay

open Cert.KernelIdeal Cert.KernelIdeal.Gen Idealize.ShloMosaic Idealize.ShloMosaic.ValueIdx Cert.Rbf.Layout

/-- The elementwise exponential read at an index. -/
theorem exp_apply {s : Shape} {φ : FTy} (a : FVec Ideal s φ) (i : s.Idx) : exp a i = Ideal.exp (a i) := rfl

/-- The squared norms of the block's rows, kept as a column and broadcast along the row: entry `(p, k)` is `∑_d x[p,d]²`. -/
theorem rowsq_apply (x0 : FVec Ideal S2048x512 .f32) (p : Fin 2048) (k : Fin 1024) :
    broadcastTo S2048x1024 (shapeCast S2048x1 (multiReduction .add [1] S2048 (mulf x0 x0) 0x00000000#32 reduces_S2048x512_S2048 (.inl rfl) rfl)
      shapeCasts_S2048_S2048x1) broadcasts_S2048x1_S2048x1024 (ix2 p k) = ∑ d : Fin 512, x0 (ix2 p d) * x0 (ix2 p d) := by
  refine (broadcastTo_a1_ab_apply _ _ p k).trans ?_
  refine (shapeCast_a_a1_apply _ _ p 0).trans ?_
  refine (Ideal.multiReduction_add_single _ _ reduces_S2048x512_S2048 _ _ (ix1 p)).trans ?_
  refine Finset.sum_congr rfl fun d _ => ?_
  have hl : reduces_S2048x512_S2048.lift (ix1 p) d = ix2 p d :=
    funext fun a => Fin.ext (by match a with | ⟨0, _⟩ => rfl | ⟨1, _⟩ => rfl)
  rw [hl]
  rfl

/-- One row broadcast down the block reads, at `(p, k)`, the row at `k` (here through a shape cast that changes nothing). -/
theorem rowcast_apply (v : FVec Ideal S1x1024 .f32) (p : Fin 2048) (k : Fin 1024) :
    broadcastTo S2048x1024 (shapeCast S1x1024 v shapeCasts_S1x1024_S1x1024) broadcasts_S1x1024_S2048x1024 (ix2 p k) = v (ix2 (0 : Fin 1) k) :=
  (broadcastTo_1b_ab_apply _ _ p k).trans (congrFun (shapeCast_self v _) _)

/-- One row broadcast down the block reads, at `(p, k)`, the row at `k`. -/
theorem row_apply (v : FVec Ideal S1x1024 .f32) (p : Fin 2048) (k : Fin 1024) :
    broadcastTo S2048x1024 v broadcasts_S1x1024_S2048x1024 (ix2 p k) = v (ix2 (0 : Fin 1) k) :=
  broadcastTo_1b_ab_apply _ _ p k

theorem lhs_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

theorem lhs_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q

theorem rhs_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q

theorem rhs_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The matrix product of the sample block with the centres transposed, into a zero accumulator: entry `(p, k)` is the dot
    product of sample row `p` with centre `k`. -/
theorem cross_apply (x0 : FVec Ideal S2048x512 .f32) (x1 : FVec Ideal S1024x512 .f32) (p : Fin 2048) (k : Fin 1024) :
    matmul dot_S2048x512_S512x1024_S2048x1024_1_0_0_1_n_n none (truncf .bf16 x0 bitsLt_bf16_f32)
      (transpose S512x1024 [1, 0] (truncf .bf16 x1 bitsLt_bf16_f32) transposes_S1024x512_p1_0_S512x1024)
      (constant S2048x1024 .f32 0x00000000#32) (ix2 p k) = ∑ d : Fin 512, x0 (ix2 p d) * x1 (ix2 k d) := by
  refine (Ideal.matmul_constant_zero_apply dot_S2048x512_S512x1024_S2048x1024_1_0_0_1_n_n none _ _ (ix2 p k)).trans ?_
  rw [← Equiv.sum_comp (ValueIdx.contrEquiv1 dot_S2048x512_S512x1024_S2048x1024_1_0_0_1_n_n 512 rfl rfl).symm]
  refine Finset.sum_congr rfl fun d _ => ?_
  have hk := ValueIdx.contrEquiv1_symm_val dot_S2048x512_S512x1024_S2048x1024_1_0_0_1_n_n 512 rfl rfl d
  have el : dot_S2048x512_S512x1024_S2048x1024_1_0_0_1_n_n.lhsIdx (ix2 p k)
      ((ValueIdx.contrEquiv1 dot_S2048x512_S512x1024_S2048x1024_1_0_0_1_n_n 512 rfl rfl).symm d) = ix2 p d :=
    funext fun a => Fin.ext (by
      match a with
      | ⟨0, _⟩ => exact lhs_0 _ _
      | ⟨1, _⟩ => exact (lhs_1 _ _).trans hk)
  have er : dot_S2048x512_S512x1024_S2048x1024_1_0_0_1_n_n.rhsIdx (ix2 p k)
      ((ValueIdx.contrEquiv1 dot_S2048x512_S512x1024_S2048x1024_1_0_0_1_n_n 512 rfl rfl).symm d) = ix2 d k :=
    funext fun a => Fin.ext (by
      match a with
      | ⟨0, _⟩ => exact (rhs_0 _ _).trans hk
      | ⟨1, _⟩ => exact rhs_1 _ _)
  rw [el, er, transpose_ix2_apply]
  rfl

/-- A lane sum over the 1024 centres, kept as a column: entry `(p, 0)` is `∑_k v[p,k]`. -/
theorem lanesum_apply (v : FVec Ideal S2048x1024 .f32) (p : Fin 2048) (q : Fin 1) :
    shapeCast S2048x1 (multiReduction .add [1] S2048 v 0x00000000#32 reduces_S2048x1024_S2048 (.inl rfl) rfl) shapeCasts_S2048_S2048x1 (ix2 p q)
      = ∑ k : Fin 1024, v (ix2 p k) := by
  refine (shapeCast_a_a1_apply _ _ p q).trans ?_
  refine (Ideal.multiReduction_add_single v _ reduces_S2048x1024_S2048 _ _ (ix1 p)).trans ?_
  exact Finset.sum_congr rfl fun k _ => congrArg v (funext fun a => Fin.ext (by match a with | ⟨0, _⟩ => rfl | ⟨1, _⟩ => rfl))

/-- THE BODY'S STORED COLUMN at row `p`. -/
theorem pay_apply (x0 : Vec Ideal S2048x512 .f32) (x1 : Vec Ideal S1024x512 .f32) (c2 w : Vec Ideal S1x1024 .f32) (b : Vec Ideal S1 .f32)
    (p : Fin 2048) (q : Fin 1) :
    k0_pay1 (F := Ideal) x0 x1 c2 w b (ix2 p q)
      = (∑ k : Fin 1024, Ideal.exp (Ideal.ofBits .f32 0xC0835731#32
            * max (((∑ d : Fin 512, x0 (ix2 p d) * x0 (ix2 p d)) - Ideal.ofBits .f32 0x40000000#32 * (∑ d : Fin 512, x0 (ix2 p d) * x1 (ix2 k d))
                + c2 (ix2 (0 : Fin 1) k)) * Ideal.ofBits .f32 0x3B000000#32) (Ideal.ofBits .f32 0x00000000#32)) * w (ix2 (0 : Fin 1) k))
        + b (ix1 (0 : Fin 1)) := by
  obtain rfl : q = 0 := Subsingleton.elim _ _
  unfold k0_pay1
  refine (addf_apply _ _ _).trans (congrArg₂ (· + ·) ?_ ?_)
  · refine (lanesum_apply _ p 0).trans (Finset.sum_congr rfl fun k _ => ?_)
    simp only [mulf_apply, exp_apply, maximumf_apply, addf_apply, subf_apply, broadcast_apply, row_apply, Ideal.ofBits_def]
    refine congrArg (fun v => Ideal.exp (Ideal.ofBits .f32 0xC0835731#32
      * max (v * Ideal.ofBits .f32 0x3B000000#32) (Ideal.ofBits .f32 0x00000000#32)) * w (ix2 (0 : Fin 1) k)) ?_
    exact congrArg₂ (· + ·)
      (congrArg₂ (· - ·) (rowsq_apply x0 p k) (congrArg (Ideal.ofBits .f32 0x40000000#32 * ·) (cross_apply x0 x1 p k)))
      (congrFun (shapeCast_self c2 _) _)
  · exact (broadcastTo_1b_ab_apply _ _ p 0).trans (shapeCast_a_1a_apply b _ 0 0)

end Cert.Rbf.Pay

end
-- ==== Proof.RbfBlocks.lean ====
/-
  From the grid's 32 points to the whole output column.

  Point `t` of the grid works on sample rows `2048 t … 2048 t + 2047`: its block of the sample array is those rows, and
  the column it writes back is those rows of the output.  The other four operands are not tiled: at every point the
  body sees all the centres, the whole row of their squared norms, the whole weight row and the bias.  The row of squared
  norms is computed before the grid starts, as a row sum of the squared centres (started from the pattern of `0.0`),
  kept as a column and transposed to a row; its entry `(0, k)` is `∑_d c[k,d]²`.

  So what point `t` writes back is rows `2048 t …` of ONE function of the argument arrays — the specification with the
  clamp.  The 32 blocks tile the 65536 rows (row `r` lies in block `r / 2048`), hence the output array ends holding that
  function.
-/
import proofs.«135842_j62105227100161_2_alg».proof.Proof.Gen.KernelIdeal.Value
import proofs.«135842_j62105227100161_2_alg».proof.Proof.RbfPayload
import proofs.«135842_j62105227100161_2_alg».proof.Proof.RbfSpec
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.Rbf.Blocks

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The clamped specification at the arguments' launch contents: what the output array will be shown to hold. -/
abbrev spec (c : Dev nD) : S65536x1.Idx → EReal :=
  Cert.Rbf.out (fun v => max v (Ideal.ofBits .f32 0x00000000#32)) (m ((c : Thread nD τ).loc main_arg0)) (m ((c : Thread nD τ).loc main_arg1)) (m ((c : Thread nD τ).loc main_arg2)) (m ((c : Thread nD τ).loc main_arg3))

/-! ## The index maps over the grid -/

/-- The printed index maps, decided over the 32 points: the sample window moves with the output window along the rows, at
    block `t`; every other window stays at block 0. -/
theorem idx_facts : ∀ t : Fin cfg0.N, win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) = t.val :=
  (by decide +kernel : ∀ t : Fin grid0.N, _)

/-! ## The row of squared norms the region finds -/

/-- The buffer the third window stages, as the operations before the grid leave it. -/
theorem sqnorm_row (c : Dev nD) :
    (V m c main_v3 : S1x1024.Idx → EReal)
      = transpose S1x1024 [1, 0] (broadcastInDim S1024x1 ![0] bcast_S1024_S1024x1_0
          (Host.reduceAdd (F := Ideal) (mulf (m ((c : Thread nD τ).loc main_arg1)) (m ((c : Thread nD τ).loc main_arg1))) (constant (F := Ideal) S_ .f32 0x00000000#32)
            reducesTo_S1024x512_S1024_d1 h_S_)) transposes_S1024x1_S1x1024_1_0 := by
  dsimp only [V, hostOps0]; after_results

/-- Its entry `(0, k)` is the squared norm of centre `k` (stated for a row `R` and centres `C` known to be the region's). -/
theorem sqnorm_entry (c : Dev nD) (k : Fin 1024) (R : S1x1024.Idx → EReal) (C : S1024x512.Idx → EReal)
    (hR : R = V m c main_v3) (hC : C = m ((c : Thread nD τ).loc main_arg1)) :
    R (ix2 (0 : Fin 1) k) = ∑ d : Fin 512, C (ix2 k d) * C (ix2 k d) := by
  rw [hR, sqnorm_row, ← hC]
  refine (transpose_ix2_apply _ _ (0 : Fin 1) k).trans ?_
  refine (broadcastInDim_apply ![0] bcast_S1024_S1024x1_0 _ (ix2 k (0 : Fin 1)) (ix1 k) (fun a => match a with
    | ⟨0, _⟩ => by show k.val = if (1024 : Nat) = 1 then 0 else k.val; rw [if_neg (by decide)])).trans ?_
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  exact Finset.sum_congr rfl fun d _ => congrArg (fun j => C j * C j)
    (funext fun a => Fin.ext (by match a with | ⟨0, _⟩ => rfl | ⟨1, _⟩ => rfl))

/-! ## The windows' blocks as parts of the argument arrays -/

/-- The sample window's block at point `t`: its row `p` is row `n` of the sample array, `n` the row of the output block. -/
theorem iblk0_apply (c : Dev nD) (t : Fin cfg0.N) (p : Fin 2048) (d : Fin 512) (n : Fin 65536)
    (hn : n.val = win0_5.index t (0 : Fin 2) * 2048 + 1 * p.val) (X : S65536x512.Idx → EReal) (hX : X = m ((c : Thread nD τ).loc main_arg0)) :
    (iblk m c 0 t : Vec Ideal S2048x512 .f32) (ix2 p d) = X (ix2 n d) := by
  subst hX
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = n.val; rw [e00, hn]
  | ⟨1, _⟩ => show win0_0.index t (1 : Fin 2) * 512 + 1 * d.val = d.val; rw [e01]; omega

/-- The centres' window is the whole array at every point. -/
theorem iblk1_apply (c : Dev nD) (t : Fin cfg0.N) (k : Fin 1024) (d : Fin 512) (C : S1024x512.Idx → EReal) (hC : C = m ((c : Thread nD τ).loc main_arg1)) :
    (iblk m c 1 t : Vec Ideal S1024x512 .f32) (ix2 k d) = C (ix2 k d) := by
  subst hC
  obtain ⟨-, -, e10, e11, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * k.val = k.val; rw [e10]; omega
  | ⟨1, _⟩ => show win0_1.index t (1 : Fin 2) * 512 + 1 * d.val = d.val; rw [e11]; omega

/-- The squared-norm window is the whole row at every point. -/
theorem iblk2_apply (c : Dev nD) (t : Fin cfg0.N) (k : Fin 1024) (R : S1x1024.Idx → EReal) (hR : R = V m c main_v3) :
    (iblk m c 2 t : Vec Ideal S1x1024 .f32) (ix2 (0 : Fin 1) k) = R (ix2 (0 : Fin 1) k) := by
  subst hR
  obtain ⟨-, -, -, -, e20, e21, -⟩ := idx_facts t
  unfold iblk
  rw [View.read_apply]
  show V m c main_v3 _ = _
  refine congrArg _ (funext fun a => Fin.ext ?_)
  match a with
  | ⟨0, _⟩ => show win0_2.index t (0 : Fin 2) * 1 + 1 * 0 = 0; rw [e20]
  | ⟨1, _⟩ => show win0_2.index t (1 : Fin 2) * 1024 + 1 * k.val = k.val; rw [e21]; omega

/-- The weight window is the whole row at every point. -/
theorem iblk3_apply (c : Dev nD) (t : Fin cfg0.N) (k : Fin 1024) (W : S1x1024.Idx → EReal) (hW : W = m ((c : Thread nD τ).loc main_arg2)) :
    (iblk m c 3 t : Vec Ideal S1x1024 .f32) (ix2 (0 : Fin 1) k) = W (ix2 (0 : Fin 1) k) := by
  subst hW
  obtain ⟨-, -, -, -, -, -, e30, e31, -⟩ := idx_facts t
  unfold iblk
  rw [View.read_apply]
  show V m c main_arg2 _ = _
  rw [V_main_arg2]
  refine congrArg _ (funext fun a => Fin.ext ?_)
  match a with
  | ⟨0, _⟩ => show win0_3.index t (0 : Fin 2) * 1 + 1 * 0 = 0; rw [e30]
  | ⟨1, _⟩ => show win0_3.index t (1 : Fin 2) * 1024 + 1 * k.val = k.val; rw [e31]; omega

/-- The bias window is the one bias at every point. -/
theorem iblk4_apply (c : Dev nD) (t : Fin cfg0.N) (B : S1.Idx → EReal) (hB : B = m ((c : Thread nD τ).loc main_arg3)) :
    (iblk m c 4 t : Vec Ideal S1 .f32) (ix1 (0 : Fin 1)) = B (ix1 (0 : Fin 1)) := by
  subst hB
  obtain ⟨-, -, -, -, -, -, -, -, e40, -⟩ := idx_facts t
  unfold iblk
  rw [View.read_apply]
  show V m c main_arg3 _ = _
  rw [V_main_arg3]
  refine congrArg _ (funext fun a => Fin.ext ?_)
  match a with
  | ⟨0, _⟩ => show win0_4.index t (0 : Fin 1) * 1 + 1 * 0 = 0; rw [e40]

/-! ## One stored entry is one entry of the specification -/

/-- If the five blocks the body holds are the parts of the arrays described above, then the entry it stores at `j` is the
    clamped specification's entry at output row `i`, where row `j 0` of the sample block is row `i 0` of the samples. -/
theorem point_eq (X : S65536x512.Idx → EReal) (C : S1024x512.Idx → EReal) (W : S1x1024.Idx → EReal) (B : S1.Idx → EReal)
    (x0 : Vec Ideal S2048x512 .f32) (x1 : Vec Ideal S1024x512 .f32) (c2 w : Vec Ideal S1x1024 .f32) (b : Vec Ideal S1 .f32)
    (j : S2048x1.Idx) (i : S65536x1.Idx)
    (h0 : ∀ d : Fin 512, x0 (ix2 (j 0) d) = X (ix2 (⟨(i 0).val, (i 0).isLt⟩ : Fin 65536) d))
    (h1 : ∀ (k : Fin 1024) (d : Fin 512), x1 (ix2 k d) = C (ix2 k d))
    (h2 : ∀ k : Fin 1024, c2 (ix2 (0 : Fin 1) k) = ∑ d : Fin 512, C (ix2 k d) * C (ix2 k d))
    (h3 : ∀ k : Fin 1024, w (ix2 (0 : Fin 1) k) = W (ix2 (0 : Fin 1) k))
    (h4 : b (ix1 (0 : Fin 1)) = B (ix1 (0 : Fin 1))) :
    k0_pay1 (F := Ideal) x0 x1 c2 w b j = Cert.Rbf.out (fun v => max v (Ideal.ofBits .f32 0x00000000#32)) X C W B i := by
  refine (congrArg (k0_pay1 (F := Ideal) x0 x1 c2 w b) (eq_ix2 j)).trans ?_
  refine (Cert.Rbf.Pay.pay_apply x0 x1 c2 w b (j 0) (j 1)).trans ?_
  unfold Cert.Rbf.out Cert.Rbf.msd
  simp only [h0, h1, h2, h3, h4]

/-! ## What a point writes back, the cover, the array -/

/-- WHAT POINT `t` WRITES BACK is block `t` of the clamped specification of the argument arrays. -/
theorem flushed_eq (c : Dev nD) (t : Fin cfg0.N) :
    (dats m 0 c).flushed 5 t = ((cfg0.win 5).blk t).view.read (Elt Ideal) (spec m c) := by
  rw [Value.flushed5]
  unfold out0_5
  rw [View.canon_unit_zero hz]
  simp only [View.ld_unit_zero (S := S2048x512) hz, View.ld_unit_zero (S := S1024x512) hz, View.ld_unit_zero (S := S1x1024) hz,
    View.ld_unit_zero (S := S1) hz1]
  funext j
  show k0_pay1 (F := Ideal) (iblk m c 0 t) (iblk m c 1 t) (iblk m c 2 t) (iblk m c 3 t) (iblk m c 4 t) j
    = spec m c (((cfg0.win 5).blk t).view.emb j)
  refine point_eq (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (iblk m c 4 t) j (((cfg0.win 5).blk t).view.emb j) ?_ ?_ ?_ ?_ ?_
  · intro d
    exact iblk0_apply m c t (j 0) d ⟨((((cfg0.win 5).blk t).view.emb j) 0).val, ((((cfg0.win 5).blk t).view.emb j) 0).isLt⟩ rfl _ rfl
  · intro k d
    exact iblk1_apply m c t k d _ rfl
  · intro k
    exact (iblk2_apply m c t k _ rfl).trans (sqnorm_entry m c k _ _ rfl rfl)
  · intro k
    exact iblk3_apply m c t k _ rfl
  · exact iblk4_apply m c t _ rfl

/-- An index of the output array is in point `t`'s block iff each coordinate is in the block's range on its axis. -/
theorem mem_blk (t : Fin cfg0.N) (i : S65536x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v4).slice (win0_5.rect t)).set ↔ _
  rw [View.set_slice_whole, Rect.mem_set_unit]
  exact Iff.rfl

/-- THE COVER: output row `r` lies in the block of point `r / 2048`, and every point writes back. -/
theorem cover (i : S65536x1.Idx) : ∃ t : Fin cfg0.N, (cfg0.win 5).flush t = true ∧ i ∈ ((cfg0.win 5).blk t).view.set := by
  have hi0 : (i 0).val < 65536 := (i 0).isLt
  have hi1 : (i 1).val < 1 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, e51, e50⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    rw [e50, ht]; omega
  | ⟨1, _⟩ =>
    show win0_5.index t (1 : Fin 2) * 1 ≤ (i 1).val ∧ (i 1).val < win0_5.index t (1 : Fin 2) * 1 + 1
    rw [e51]; omega

/-- THE ARRAY after the run is the clamped specification of the argument arrays. -/
theorem final (c : Dev nD) : (dats m 0 c).arrAt 5 cfg0.N = spec m c :=
  (dats m 0 c).arrAt_eq_of_cover 5 (spec m c) (fun t _ => flushed_eq m c t) cover

/-- The kernel's run, read: the result array at the clamped specification, the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Rbf.Blocks

end
-- ==== Proof.RbfFinite.lean ====
/-
  From the precondition to "every sample and every centre is a real number".

  The precondition is a conjunction of four tests, one per argument array: every entry `x` of the array satisfies
  `|x| < +∞`, where `|x|` is `max x (−x)` and `+∞` is the float pattern of infinity.  On the extended reals, `max x (−x)`
  is `+∞` at both infinities, so the test holds exactly of the reals.  The conjunction is an `and` of one-bit words and each
  test a reduction by `and` over the whole array, so the claim "the result is 1" gives the test at every index.
-/
import proofs.«135842_j62105227100161_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Rbf.Finite

open Idealize.ShloMosaic Cert.Pre_finite_inputs

variable [Cert.Pre_finite_inputs.Facts]

instance : Subsingleton S_.Idx := ⟨fun a b => funext fun d => d.elim0⟩

/-- An extended real whose absolute value compares below the pattern of `+∞` is a real. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of the samples and of the centres is a real. -/
theorem reals_of_pre (X : FVec Ideal S65536x512 .f32) (C : FVec Ideal S1024x512 .f32) (W : FVec Ideal S1x1024 .f32) (B : FVec Ideal S1 .f32)
    (h : fn (F := Ideal) X C W B = fun _ => 1#1) :
    (∀ i, ∃ r : ℝ, X i = (r : EReal)) ∧ (∀ i, ∃ r : ℝ, C i = (r : EReal)) := by
  have h0 := congrFun h ValueIdx.ix0
  dsimp only [fn, fn_part1] at h0
  obtain ⟨h13, -⟩ := IntOp.andi_eq_one.mp h0
  obtain ⟨h8, -⟩ := IntOp.andi_eq_one.mp h13
  obtain ⟨h3, h7⟩ := IntOp.andi_eq_one.mp h8
  exact ⟨fun i => real_of_abs_lt _ (Host.reduce_andi_all _ _ _ _ _ h3 i), fun i => real_of_abs_lt _ (Host.reduce_andi_all _ _ _ _ _ h7 i)⟩

end Cert.Rbf.Finite

end
-- ==== Proof.lean ====
/-
  A radial-basis layer computed two ways, equal on the extended reals for finite inputs.

  Both programs take samples `x` (65536 × 512), centres `c` (1024 × 512), a weight row `W` (1 × 1024) and a bias `b`, and
  return the column whose row `n` is `∑_k exp(−γ · msd(n, k)) · W[0,k] + b[0]`, where
  `msd(n, k) = (∑_d x[n,d]² − 2 ∑_d x[n,d] c[k,d] + ∑_d c[k,d]²) · 2⁻⁹` is the mean squared distance between sample `n` and
  centre `k`, written through the expansion of the square.  The tiled program works on 2048 sample rows at a time, takes
  the cross term as a matrix product with the centres transposed and the last sum as a lane reduction, and clamps `msd` at
  `0` from below before the exponential; the plain program does not clamp.

  Read exactly, the two differ only by that clamp (rounding an operand to a narrower format is the identity on exact
  values, and a sum does not depend on how it is tiled).  For finite inputs the bracket is `∑_d (x[n,d] − c[k,d])²`, a sum
  of squares, so `msd ≥ 0` and the clamp is the identity: Proof/RbfSpec.lean (`msd_nonneg`, `out_clamp`).  Finiteness is
  used here and only here: with an infinite entry the bracket can be `⊥`.  Proof/RbfRef.lean reads the plain program's result
  as the unclamped specification; Proof/RbfPayload.lean reads one stored entry of the tiled program's body,
  Proof/RbfBlocks.lean assembles the 32 written-back blocks into the clamped specification of the whole arrays;
  Proof/RbfFinite.lean turns the precondition into "every sample and every centre is a real".  The three frames are the
  generated runs; nothing was rewritten between the tiled program and its exact reading, so that claim is `True`.
-/
import proofs.«135842_j62105227100161_2_alg».proof.Defs
import proofs.«135842_j62105227100161_2_alg».proof.Proof.Gen.Kernel
import proofs.«135842_j62105227100161_2_alg».proof.Proof.Gen.Kernel.Skeleton
import proofs.«135842_j62105227100161_2_alg».proof.Proof.Gen.Kernel.Launch
import proofs.«135842_j62105227100161_2_alg».proof.Proof.Gen.Kernel.Points
import proofs.«135842_j62105227100161_2_alg».proof.Proof.Gen.Kernel.Frame
import proofs.«135842_j62105227100161_2_alg».proof.Proof.Gen.KernelIdeal
import proofs.«135842_j62105227100161_2_alg».proof.Proof.Gen.KernelIdeal.Skeleton
import proofs.«135842_j62105227100161_2_alg».proof.Proof.Gen.KernelIdeal.Launch
import proofs.«135842_j62105227100161_2_alg».proof.Proof.Gen.KernelIdeal.Points
import proofs.«135842_j62105227100161_2_alg».proof.Proof.Gen.KernelIdeal.Frame
import proofs.«135842_j62105227100161_2_alg».proof.Proof.Gen.ReferenceIdeal
import proofs.«135842_j62105227100161_2_alg».proof.Proof.Gen.KernelIdeal.Value
import proofs.«135842_j62105227100161_2_alg».proof.Proof.Gen.ReferenceIdeal.Run
import proofs.«135842_j62105227100161_2_alg».proof.Proof.Gen.ReferenceIdeal.Read
import proofs.«135842_j62105227100161_2_alg».proof.Proof.Gen.Pre_finite_inputs
import proofs.«135842_j62105227100161_2_alg».proof.Proof.RbfSpec
import proofs.«135842_j62105227100161_2_alg».proof.Proof.RbfRef
import proofs.«135842_j62105227100161_2_alg».proof.Proof.RbfBlocks
import proofs.«135842_j62105227100161_2_alg».proof.Proof.RbfFinite
import Idealize.ShloMosaic.Adequacy
import Idealize.ShloMosaic.Init

noncomputable section

namespace Cert.Proof

open Idealize.ShloMosaic Idealize.SL.Sem

/-- The tiled program as printed runs to the end and leaves its arguments alone. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- So does the plain program: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the tiled program and its exact reading. -/
theorem preserves : Cert.preserves_Kernel_KernelIdeal := trivial

/-- From memories that agree on the four arguments, all finite, the two programs end with the same column: the tiled one at
    the clamped specification, the plain one at the unclamped one, and on finite samples and centres these are one function. -/
theorem algebraic : Cert.algebraic_KernelIdeal_ReferenceIdeal := by
  intro m ρ m' ρ' hpre hagree
  refine ⟨fun c => Cert.Rbf.Blocks.spec m c, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _ _).trans ?_
  refine (Cert.Rbf.Ref.result_eq _ _ _ _).trans ?_
  rw [(hagree c).1, (hagree c).2.1, (hagree c).2.2.1, (hagree c).2.2.2]
  obtain ⟨hX, hC⟩ := Cert.Rbf.Finite.reals_of_pre _ _ _ _ (hpre c)
  exact (Cert.Rbf.out_clamp _ _ _ _ hX hC).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
